-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024x1024 .f32) (main_arg2 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S65536x1024, .f32⟩
  | .hbm, ⟨6, _⟩ => ⟨S1x1024, .f32⟩
  | .hbm, ⟨7, _⟩ => ⟨S65536x1024, .f32⟩
  | .hbm, ⟨8, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.Spec.lean ====
/-
  The function both programs compute, over the extended reals: a linear layer whose weight is replaced by its sign.
  For an input `x` of 65536 rows and 1024 columns, a weight `w` of 1024 rows (one per output feature) and 1024
  columns (one per input feature) and a bias `b` of 1024 entries,

      out (r, o) = (∑ k, x (r, k) · sign (w (o, k))) + b o,

  where `sign` is `-1` below zero (at `-∞` too), `0` at zero and `1` above it (at `+∞` too). The sum is over
  the 1024 input features; addition and multiplication of extended reals are commutative and associative, so no order
  or grouping of the sum matters and no finiteness of the entries is needed.
-/
import Idealize.ShloMosaic.PureOps.Ideal
import Idealize.ShloMosaic.Lib.ValueIdx

noncomputable section

namespace Cert.BinLinear

open Idealize.ShloMosaic Idealize.ShloMosaic.ValueIdx

/-- The sign-binarized linear layer, index by index: row `i 0` of `x` against the signs of row `i 1` of `w`,
    plus entry `i 1` of the bias. -/
def binLinear (x : (⟨2, ![65536, 1024]⟩ : Shape).Idx → EReal) (w : (⟨2, ![1024, 1024]⟩ : Shape).Idx → EReal)
    (b : (⟨1, ![1024]⟩ : Shape).Idx → EReal) : (⟨2, ![65536, 1024]⟩ : Shape).Idx → EReal :=
  fun i => (∑ k : Fin 1024, x (ix2 (i 0) k) * Ideal.sign (w (ix2 (i 1) k))) + b (ix1 (i 1))

theorem binLinear_apply (x : (⟨2, ![65536, 1024]⟩ : Shape).Idx → EReal) (w : (⟨2, ![1024, 1024]⟩ : Shape).Idx → EReal)
    (b : (⟨1, ![1024]⟩ : Shape).Idx → EReal) (r : Fin 65536) (o : Fin 1024) :
    binLinear x w b (ix2 r o) = (∑ k : Fin 1024, x (ix2 r k) * Ideal.sign (w (ix2 o k))) + b (ix1 o) := rfl

end Cert.BinLinear

end
-- ==== Proof.RefIsSpec.lean ====
/-
  The reference, read one operation at a time, is the sign-binarized linear layer: `jnp.sign` of the weight,
  transposed, contracted with `x` over the input features, plus the bias broadcast over the rows. Entry `(r, o)`
  of the product reads the transposed sign matrix at `(k, o)`, which is the sign of the weight at `(o, k)`.
-/
import proofs.«125479_j4200478015737_1_alg».proof.Proof.Gen.ReferenceIdeal.Read
import proofs.«125479_j4200478015737_1_alg».proof.Proof.Spec

noncomputable section

namespace Cert.BinLinear.Ref

open Idealize.ShloMosaic Idealize.ShloMosaic.ValueIdx Cert.ReferenceIdeal Cert.ReferenceIdeal.Read

/-- The left operand of the product at `(r, ·)` and contraction coordinate `k` is `x (r, k)`. -/
theorem lidx_eq (i : S65536x1024.Idx) (k : Fin 1024) : lidx_main_v2 i k = ix2 (i 0) k :=
  funext fun a => Fin.ext (by match a with | ⟨0, _⟩ => rfl | ⟨1, _⟩ => rfl)

/-- The right operand — the transposed sign matrix — at `(k, o)` is the sign matrix at `(o, k)`. -/
theorem ridx_eq (i : S65536x1024.Idx) (k : Fin 1024) : idx_main_v1 (ridx_main_v2 i k) = ix2 (i 1) k :=
  funext fun a => Fin.ext (by match a with | ⟨0, _⟩ => rfl | ⟨1, _⟩ => rfl)

/-- The bias, broadcast to one row and then over all rows, at `(r, o)` is `b o`. -/
theorem bidx_eq (i : S65536x1024.Idx) : idx_main_v3 (idx_main_v4 i) = ix1 (i 1) :=
  funext fun a => Fin.ext (by match a with | ⟨0, _⟩ => rfl)

/-- The reference's result, as a function of its three arguments, is the sign-binarized linear layer. -/
theorem ref_eq (x0 : (⟨S65536x1024, .f32⟩ : BufTy).Contents (Elt Ideal)) (x1 : (⟨S1024x1024, .f32⟩ : BufTy).Contents (Elt Ideal))
    (x2 : (⟨S1024, .f32⟩ : BufTy).Contents (Elt Ideal)) :
    val_main_v5 (F := Ideal) x0 x1 x2 = binLinear x0 x1 x2 := by
  funext i
  rw [val_main_v5_apply, val_main_v2_apply, val_main_v4_apply, val_main_v3_apply]
  simp only [val_main_v1_apply, val_main_v0_apply, lidx_eq, ridx_eq, bidx_eq, Ideal.hostUnary_sign_def, Ideal.addf_def]
  rfl

end Cert.BinLinear.Ref

end
-- ==== Proof.KernelPayload.lean ====
/-
  The kernel body's one stored value, read at an entry. From a block `x` of 1024 rows of the input, the whole weight
  `w` and the bias as a single row `b`, the body stores

      (r, o) ↦ (∑ k, x (r, k) · sign (w (o, k))) + b (0, o).

  The sign is written as a selection: where `|w| > 0`, `-1` if `w < 0` and `1` otherwise; elsewhere `w`
  itself, which is then `0`. That is the sign function on every extended real. The two narrowings to bf16 are the
  identity on exact values; the matrix product contracts the second axis of both operands into a zero accumulator.
-/
import proofs.«125479_j4200478015737_1_alg».proof.Proof.Gen.KernelIdeal.Skeleton
import proofs.«125479_j4200478015737_1_alg».proof.Proof.Spec
import Idealize.ShloMosaic.PureOps.Ideal.Laws
import Idealize.ShloMosaic.Lib.ValueIdx
import Idealize.ShloMosaic.Lib.ValueLayout

noncomputable section

namespace Cert.BinLinear.Kernel

open Idealize.ShloMosaic Idealize.ShloMosaic.ValueIdx Cert.KernelIdeal Cert.KernelIdeal.Gen

/-! ## The operand indices of the product: both operands are contracted over their second axis -/

theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of a left operand `l` with a right operand `r`, into the zero accumulator, at `(p, o)`: row `p`
    of `l` against row `o` of `r`. -/
theorem matmul_rows (l r : FVec Ideal S1024x1024 .bf16) (p o : Fin 1024) :
    matmul dot_S1024x1024_S1024x1024_S1024x1024_1_1_0_0_n_n none l r (constant S1024x1024 .f32 0x00000000#32) (ix2 p o)
      = ∑ k : Fin 1024, l (ix2 p k) * r (ix2 o k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p o)
      ((contrEquiv1 dot_S1024x1024_S1024x1024_S1024x1024_1_1_0_0_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_1_0_0_n_n.rhsIdx (ix2 p o)
      ((contrEquiv1 dot_S1024x1024_S1024x1024_S1024x1024_1_1_0_0_n_n 1024 rfl rfl).symm k) = ix2 o k :=
    funext fun a => Fin.ext (by
      match a with
      | ⟨0, _⟩ => exact rhs_row _ _
      | ⟨1, _⟩ => exact (rhs_col _ _).trans hk)
  rw [el, er]

/-- The body's selection is the sign function, entry by entry. -/
theorem sign_select (w : FVec Ideal S1024x1024 .f32) :
    select (cmpf .ogt (absf w) (broadcast S1024x1024 (Scalar.ofBits .f32 0x00000000#32)))
        (select (cmpf .olt w (constant S1024x1024 .f32 0x00000000#32)) (constant S1024x1024 .f32 0xBF800000#32)
          (constant S1024x1024 .f32 0x3F800000#32)) w
      = fun i => Ideal.sign (w i) :=
  funext fun i => Ideal.jnp_sign_eq_sign_f32 (w i)

/-- The stored value at `(p, o)`. -/
theorem pay_apply (x : Vec Ideal S1024x1024 .f32) (w : Vec Ideal S1024x1024 .f32) (b : Vec Ideal S1x1024 .f32) (p o : Fin 1024) :
    k0_pay1 (F := Ideal) x w b (ix2 p o)
      = (∑ k : Fin 1024, x (ix2 p k) * Ideal.sign (w (ix2 o k))) + b (ix2 (0 : Fin 1) o) := by
  unfold k0_pay1
  rw [addf_apply, matmul_rows, sign_select, shapeCast_self, broadcastTo_1b_ab_apply]
  rfl

end Cert.BinLinear.Kernel

end
-- ==== Proof.KernelValue.lean ====
/-
  The kernel's result array, as one function of its arguments. The grid has 64 points; point `t` reads rows
  `1024 t … 1024 t + 1023` of the input, the whole weight and the whole bias row, and writes rows
  `1024 t … 1024 t + 1023` of the result. Entry `(p, o)` of what it writes is the sign-binarized linear layer at row
  `1024 t + p` and column `o`; the 64 row blocks tile the result, so the result array is that layer everywhere.
  The bias reaches the kernel as a single row: a reshape of the bias vector done before the launch.
-/
import proofs.«125479_j4200478015737_1_alg».proof.Proof.Gen.KernelIdeal.Value
import proofs.«125479_j4200478015737_1_alg».proof.Proof.KernelPayload
import Idealize.ShloMosaic.Lib.StableHlo.Run

noncomputable section

namespace Cert.BinLinear.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The block indices at every point: the input's row block is the result's, which is the point's number; every other
    block index is zero (whole weight, whole bias row, all columns). -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The bias row the region finds is the bias vector: the reshape before the launch keeps the entries in order. -/
theorem bias_row (c : Dev nD) (u : Fin 1) (o : Fin 1024) :
    (V m c main_v0 : S1x1024.Idx → EReal) (ix2 u o) = (m ((c : Thread nD τ).loc main_arg2) : S1024.Idx → EReal) (ix1 o) := by
  have e : (V m c main_v0 : S1x1024.Idx → EReal)
      = shapeCast S1x1024 (m ((c : Thread nD τ).loc main_arg2) : S1024.Idx → EReal) shapeCasts_S1024_S1x1024 := by
    dsimp only [Gen.V, Gen.hostOps0]; after_results; rfl
  rw [e, shapeCast_a_1a_apply]

/-- The input's block at point `t`, at `y`, is the input at row `(row block of the result) · 1024 + y 0`, column `y 1`. -/
theorem xblk_apply (c : Dev nD) (t : Fin cfg0.N) (y : S1024x1024.Idx) (k : S65536x1024.Idx)
    (hk0 : (k 0).val = win0_3.index t (0 : Fin 2) * 1024 + (y 0).val) (hk1 : (k 1).val = (y 1).val) :
    (iblk m c 0 t : Vec Ideal S1024x1024 .f32) y = (V m c main_arg0 : S65536x1024.Idx → EReal) k := by
  obtain ⟨e0, e1, -⟩ := idx_facts t
  unfold iblk
  rw [View.read_apply]
  show V m c main_arg0 _ = V m c main_arg0 _
  refine congrArg _ (funext fun a => Fin.ext ?_)
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- The weight's block at every point is the whole weight. -/
theorem wblk_apply (c : Dev nD) (t : Fin cfg0.N) (y : S1024x1024.Idx) :
    (iblk m c 1 t : Vec Ideal S1024x1024 .f32) y = (V m c main_arg1 : S1024x1024.Idx → EReal) y := by
  obtain ⟨-, -, e0, e1, -⟩ := idx_facts t
  unfold iblk
  rw [View.read_apply]
  show V m c main_arg1 _ = V m c main_arg1 _
  refine congrArg _ (funext fun a => Fin.ext ?_)
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- The bias row's block at every point is the whole bias row. -/
theorem bblk_apply (c : Dev nD) (t : Fin cfg0.N) (y : S1x1024.Idx) :
    (iblk m c 2 t : Vec Ideal S1x1024 .f32) y = (V m c main_v0 : S1x1024.Idx → EReal) y := by
  obtain ⟨-, -, -, -, e0, e1, -⟩ := idx_facts t
  unfold iblk
  rw [View.read_apply]
  show V m c main_v0 _ = V m c main_v0 _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- One stored entry against the layer: if the three loaded blocks are the rows of the arrays that entry `i` of the
    layer reads, the stored value at `(p, o)` is the layer at `i`. -/
theorem point_eq (X : S65536x1024.Idx → EReal) (W : S1024x1024.Idx → EReal) (b : S1024.Idx → EReal)
    (x : Vec Ideal S1024x1024 .f32) (w : Vec Ideal S1024x1024 .f32) (bb : Vec Ideal S1x1024 .f32)
    (i : S65536x1024.Idx) (p o : Fin 1024)
    (hx : ∀ k : Fin 1024, x (ix2 p k) = X (ix2 (i 0) k)) (hw : ∀ k : Fin 1024, w (ix2 o k) = W (ix2 (i 1) k))
    (hb : bb (ix2 (0 : Fin 1) o) = b (ix1 (i 1))) :
    k0_pay1 (F := Ideal) x w bb (ix2 p o) = binLinear X W b i := by
  rw [Kernel.pay_apply]
  unfold binLinear
  simp only [hx, hw, hb]

/-- The layer of the arguments as launched. -/
abbrev result (c : Dev nD) : S65536x1024.Idx → EReal :=
  binLinear (m ((c : Thread nD τ).loc main_arg0)) (m ((c : Thread nD τ).loc main_arg1)) (m ((c : Thread nD τ).loc main_arg2))

/-- What point `t` writes back is block `t` of the layer. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S1024x1024) hz, View.ld_unit_zero (S := S1x1024) hz]
  funext j
  rw [View.read_apply]
  obtain ⟨p, o, rfl⟩ : ∃ (p o : Fin 1024), j = ix2 p o := ⟨j 0, j 1, eq_ix2 j⟩
  have h0 : ((((cfg0.win 3).blk t).view.emb (ix2 p o)) 0).val = win0_3.index t (0 : Fin 2) * 1024 + 1 * p.val := rfl
  have h1 : ((((cfg0.win 3).blk t).view.emb (ix2 p o)) 1).val = win0_3.index t (1 : Fin 2) * 1024 + 1 * o.val := rfl
  obtain ⟨-, -, -, -, -, -, -, e31⟩ := idx_facts t
  refine point_eq (m ((c : Thread nD τ).loc main_arg0)) (m ((c : Thread nD τ).loc main_arg1)) (m ((c : Thread nD τ).loc main_arg2))
    (iblk m c 0 t) (iblk m c 1 t) (iblk m c 2 t) (((cfg0.win 3).blk t).view.emb (ix2 p o)) p o ?_ ?_ ?_
  · intro k
    refine (xblk_apply m c t (ix2 p k) (ix2 ((((cfg0.win 3).blk t).view.emb (ix2 p o)) 0) k) ?_ rfl).trans
      (congrFun (V_main_arg0 m c) _)
    show ((((cfg0.win 3).blk t).view.emb (ix2 p o)) 0).val = win0_3.index t (0 : Fin 2) * 1024 + p.val
    rw [h0]; omega
  · intro k
    refine (wblk_apply m c t (ix2 o k)).trans ((congrFun (V_main_arg1 m c) _).trans ?_)
    refine congrArg _ (funext fun a => Fin.ext ?_)
    match a with
    | ⟨0, _⟩ => show o.val = ((((cfg0.win 3).blk t).view.emb (ix2 p o)) 1).val; rw [h1, e31]; omega
    | ⟨1, _⟩ => rfl
  · refine (bblk_apply m c t (ix2 (0 : Fin 1) o)).trans ((bias_row m c 0 o).trans ?_)
    refine congrArg _ (funext fun a => Fin.ext ?_)
    match a with
    | ⟨0, _⟩ => show o.val = ((((cfg0.win 3).blk t).view.emb (ix2 p o)) 1).val; rw [h1, e31]; omega

/-- An index of the result is in point `t`'s block iff each coordinate is in the block's range on its axis. -/
theorem mem_blk (t : Fin cfg0.N) (i : S65536x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the result is in the block of the point its row falls in: row `r` belongs to point `r / 1024`. -/
theorem cover (i : S65536x1024.Idx) :
    ∃ t : Fin cfg0.N, (cfg0.win 3).flush t = true ∧ i ∈ ((cfg0.win 3).blk t).view.set := by
  have hN : cfg0.N = 64 := N_0
  have hi0 : (i 0).val < 65536 := (i 0).isLt
  have hi1 : (i 1).val < 1024 := (i 1).isLt
  refine ⟨⟨(i 0).val / 1024, by rw [hN]; omega⟩, flush0_3 _, ?_⟩
  rw [mem_blk]
  obtain ⟨-, -, -, -, -, -, e30, e31⟩ := idx_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e30]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e31]; omega

/-- The result array after the run is the layer of the arguments. -/
theorem final (c : Dev nD) : (dats m 0 c).arrAt 3 cfg0.N = result m c :=
  (dats m 0 c).arrAt_eq_of_cover 3 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.BinLinear.KernelValue

end
-- ==== Proof.lean ====
/-
  A linear layer with a sign-binarized weight, computed two ways, gives one result over the extended reals.

  The kernel walks the 65536 rows of the input in 64 blocks of 1024 rows. For each block it takes the sign of every weight
  entry (written as a selection: `±1` by the order where the entry is not zero, the entry itself where it is), multiplies
  the block of rows with the sign matrix, contracting over the 1024 input features, and adds the bias row to every row of
  the product. The reference takes `sign` of the weight, transposes it, multiplies the whole input with it and adds the
  bias. Entry `(r, o)` is on both sides

      (∑ k, x (r, k) · sign (w (o, k))) + b o,

  the same sum of the same products in the same order, so nothing about the entries (finiteness included) is used: the
  selection is the sign function on every extended real, the narrowing to bf16 before the product is the identity on
  exact values, and the product's zero accumulator adds nothing.

  The pieces: `Spec` states the layer; `RefIsSpec` reads the reference's operations one at a time and finds the layer;
  `KernelPayload` reads the kernel's stored value at an entry; `KernelValue` shows that the 64 row blocks the kernel
  writes tile the result and that each is the layer's block. Below, the three programs run and keep their arguments, the
  one rewriting the idealized kernel carries (a float's sign bit read as "below zero") is the stated one, and the two
  idealized programs end with equal results.
-/
import proofs.«125479_j4200478015737_1_alg».proof.Defs
import proofs.«125479_j4200478015737_1_alg».proof.Proof.Gen.Kernel
import proofs.«125479_j4200478015737_1_alg».proof.Proof.Gen.Kernel.Skeleton
import proofs.«125479_j4200478015737_1_alg».proof.Proof.Gen.Kernel.Launch
import proofs.«125479_j4200478015737_1_alg».proof.Proof.Gen.Kernel.Points
import proofs.«125479_j4200478015737_1_alg».proof.Proof.Gen.Kernel.Frame
import proofs.«125479_j4200478015737_1_alg».proof.Proof.Gen.KernelIdeal
import proofs.«125479_j4200478015737_1_alg».proof.Proof.Gen.KernelIdeal.Skeleton
import proofs.«125479_j4200478015737_1_alg».proof.Proof.Gen.KernelIdeal.Launch
import proofs.«125479_j4200478015737_1_alg».proof.Proof.Gen.KernelIdeal.Points
import proofs.«125479_j4200478015737_1_alg».proof.Proof.Gen.KernelIdeal.Frame
import proofs.«125479_j4200478015737_1_alg».proof.Proof.Gen.ReferenceIdeal
import proofs.«125479_j4200478015737_1_alg».proof.Proof.Gen.Pre_finite_inputs
import proofs.«125479_j4200478015737_1_alg».proof.Proof.Gen.KernelIdeal.Value
import proofs.«125479_j4200478015737_1_alg».proof.Proof.Gen.ReferenceIdeal.Run
import proofs.«125479_j4200478015737_1_alg».proof.Proof.Gen.ReferenceIdeal.Read
import proofs.«125479_j4200478015737_1_alg».proof.Proof.RefIsSpec
import proofs.«125479_j4200478015737_1_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel differs from the printed one in one place: `1.0` carrying a weight entry's sign bit is read as
    `-1` where the entry is below zero and `1` elsewhere. -/
theorem preserves : Cert.preserves_Kernel_KernelIdeal :=
  IdealRules.sign_bit.statement Cert.KernelIdeal.S1024x1024 .f32

/-- From memories that agree on the three arguments, the idealized kernel's result array and the idealized reference's
    both end at the sign-binarized linear layer of those arguments. -/
theorem algebraic : Cert.algebraic_KernelIdeal_ReferenceIdeal := by
  intro m ρ m' ρ' _ hagree
  refine ⟨fun c => Cert.BinLinear.KernelValue.result m c, Cert.BinLinear.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.BinLinear.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
